-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x1024x64 : Shape := ⟨4, ![2, 12, 1024, 64]⟩
abbrev S2x12x64x1024 : Shape := ⟨4, ![2, 12, 64, 1024]⟩
abbrev S1 : Shape := ⟨1, ![1]⟩
abbrev S_ : Shape := ⟨0, ![]⟩

class Facts : Prop where
  bcast_S_S2x12x1024x64 : S_.BroadcastsInDim S2x12x1024x64 (![] : Fin 0 → Fin S2x12x1024x64.rank)
  reducesTo_S2x12x1024x64_S_d0_1_2_3 : S2x12x1024x64.ReducesTo [0, 1, 2, 3] S_
  h_S_ : 0 < S_.numel
  bcast_S_S2x12x64x1024 : S_.BroadcastsInDim S2x12x64x1024 (![] : Fin 0 → Fin S2x12x64x1024.rank)
  reducesTo_S2x12x64x1024_S_d0_1_2_3 : S2x12x64x1024.ReducesTo [0, 1, 2, 3] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S2x12x1024x64 .f32) (main_arg1 : FVec F S2x12x64x1024 .f32) (main_arg2 : FVec F S1 .f32) (main_arg3 : FVec F S1 .f32) : IVec S_ 1 :=
  let main_v0 : FVec F S2x12x1024x64 .f32 := Host.absf main_arg0
  let main_cst : FVec F S_ .f32 := constant S_ .f32 0x7F800000#32
  let main_v1 : FVec F S2x12x1024x64 .f32 := broadcastInDim S2x12x1024x64 ![] bcast_S_S2x12x1024x64 main_cst
  let main_v2 : IVec S2x12x1024x64 1 := cmpf .olt main_v0 main_v1
  let main_c : IVec S_ 1 := constantI S_ 1 1#1
  let main_v3 : IVec S_ 1 := (fun x v => Host.reduce IntOp.andi x v reducesTo_S2x12x1024x64_S_d0_1_2_3 h_S_) main_v2 main_c
  let main_v4 : FVec F S2x12x64x1024 .f32 := Host.absf main_arg1
  let main_cst_0 : FVec F S_ .f32 := constant S_ .f32 0x7F800000#32
  let main_v5 : FVec F S2x12x64x1024 .f32 := broadcastInDim S2x12x64x1024 ![] bcast_S_S2x12x64x1024 main_cst_0
  let main_v6 : IVec S2x12x64x1024 1 := cmpf .olt main_v4 main_v5
  let main_c_1 : IVec S_ 1 := constantI S_ 1 1#1
  let main_v7 : IVec S_ 1 := (fun x v => Host.reduce IntOp.andi x v reducesTo_S2x12x64x1024_S_d0_1_2_3 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S2x12x1024x64 : Shape := ⟨4, ![2, 12, 1024, 64]⟩
abbrev S2x12x64x1024 : Shape := ⟨4, ![2, 12, 64, 1024]⟩
abbrev S1 : Shape := ⟨1, ![1]⟩
abbrev S24x1024x64 : Shape := ⟨3, ![24, 1024, 64]⟩
abbrev S24x64x1024 : Shape := ⟨3, ![24, 64, 1024]⟩
abbrev S24x1024x1024 : Shape := ⟨3, ![24, 1024, 1024]⟩
abbrev S2x12x1024x1024 : Shape := ⟨4, ![2, 12, 1024, 1024]⟩
abbrev S2x1024x64 : Shape := ⟨3, ![2, 1024, 64]⟩
abbrev S2x64x1024 : Shape := ⟨3, ![2, 64, 1024]⟩
abbrev S2x1024x1024 : Shape := ⟨3, ![2, 1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x12x1024x64, .f32⟩
  | .hbm, ⟨1, _⟩ => ⟨S2x12x64x1024, .f32⟩
  | .hbm, ⟨2, _⟩ => ⟨S1, .f32⟩
  | .hbm, ⟨3, _⟩ => ⟨S1, .f32⟩
  | .hbm, ⟨4, _⟩ => ⟨S24x1024x64, .f32⟩
  | .hbm, ⟨5, _⟩ => ⟨S24x64x1024, .f32⟩
  | .hbm, ⟨6, _⟩ => ⟨S24x1024x1024, .f32⟩
  | .hbm, ⟨7, _⟩ => ⟨S2x12x1024x1024, .f32⟩
  | .local _ .vmem, ⟨0, _⟩ => ⟨S2x1024x64, .f32⟩
  | .local _ .vmem, ⟨1, _⟩ => ⟨S2x1024x64, .f32⟩
  | .local _ .vmem, ⟨2, _⟩ => ⟨S2x64x1024, .f32⟩
  | .local _ .vmem, ⟨3, _⟩ => ⟨S2x64x1024, .f32⟩
  | .local _ .vmem, ⟨4, _⟩ => ⟨S2x1024x1024, .f32⟩
  | .local _ .vmem, ⟨5, _⟩ => ⟨S2x1024x1024, .f32⟩
  | _, _ => ⟨S2x12x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x12x1024x64_S24x1024x64 : S2x12x1024x64.ShapeCasts S24x1024x64
  shapeCasts_S2x12x64x1024_S24x64x1024 : S2x12x64x1024.ShapeCasts S24x64x1024
  shapeCasts_S24x1024x1024_S2x12x1024x1024 : S24x1024x1024.ShapeCasts S2x12x1024x1024
  inb_S2x1024x64_S2x1024x64_0_0_0 : ∀ a, (![0, 0, 0] : Fin 3 → Nat) a + S2x1024x64.size a ≤ S2x1024x64.size a
  h_S2x1024x64 : 0 < S2x1024x64.numel
  shapeCasts_S2x1024x64_S2x1024x64 : S2x1024x64.ShapeCasts S2x1024x64
  bitsLt_bf16_f32 : FTy.bits .bf16 < FTy.bits .f32
  inb_S2x64x1024_S2x64x1024_0_0_0 : ∀ a, (![0, 0, 0] : Fin 3 → Nat) a + S2x64x1024.size a ≤ S2x64x1024.size a
  h_S2x64x1024 : 0 < S2x64x1024.numel
  shapeCasts_S2x64x1024_S2x64x1024 : S2x64x1024.ShapeCasts S2x64x1024
  inb_S2x1024x1024_S2x1024x1024_0_0_0 : ∀ a, (![0, 0, 0] : Fin 3 → Nat) a + S2x1024x1024.size a ≤ S2x1024x1024.size a
  h_S2x1024x1024 : 0 < S2x1024x1024.numel
  dot_S2x1024x64_S2x64x1024_S2x1024x1024_2_1_1_2_0_0_wf : DotDims.WF S2x1024x64 S2x64x1024 S2x1024x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x64.size a ≤ S24x1024x64.size a
  hwx0_0 : ∀ i : grid0.Coords, EltTy.bits .f32 = 32 ∨ (Rect.block (s := S24x1024x64) S2x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x64x1024.size a ≤ S24x64x1024.size a
  hwx0_1 : ∀ i : grid0.Coords, EltTy.bits .f32 = 32 ∨ (Rect.block (s := S24x64x1024) S2x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x1024.size a ≤ S24x1024x1024.size a
  hwx0_2 : ∀ i : grid0.Coords, EltTy.bits .f32 = 32 ∨ (Rect.block (s := S24x1024x1024) S2x1024x1024.size (cc0_transform_2 i) (hinb0_2 i)).WholeWords (EltTy.packing .f32)

variable [Facts₀]

def dot_S2x1024x64_S2x64x1024_S2x1024x1024_2_1_1_2_0_0 : DotDims S2x1024x64 S2x64x1024 S2x1024x1024 where
  lhsContracting := [2]
  rhsContracting := [1]
  lhsNonContracting := [1]
  rhsNonContracting := [2]
  lhsBatch := [0]
  rhsBatch := [0]
  wf := dot_S2x1024x64_S2x64x1024_S2x1024x1024_2_1_1_2_0_0_wf

abbrev win0_0 : Pipeline.Window sig grid0 :=
  Pipeline.Window.ofSpec (Memref.whole main_call0_v0) S2x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S2x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S2x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x12x1024x64 : Shape := ⟨4, ![2, 12, 1024, 64]⟩
abbrev S2x12x64x1024 : Shape := ⟨4, ![2, 12, 64, 1024]⟩
abbrev S1 : Shape := ⟨1, ![1]⟩
abbrev S2x12x1024x1024 : Shape := ⟨4, ![2, 12, 1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x12x1024x64, .f32⟩
  | .hbm, ⟨1, _⟩ => ⟨S2x12x64x1024, .f32⟩
  | .hbm, ⟨2, _⟩ => ⟨S1, .f32⟩
  | .hbm, ⟨3, _⟩ => ⟨S1, .f32⟩
  | .hbm, ⟨4, _⟩ => ⟨S2x12x1024x1024, .f32⟩
  | _, _ => ⟨S2x12x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩

abbrev nD : Nat := 1
abbrev τ : Topo := Topo.v7x

variable {F : FTy → Type} [FloatOps F]

class Facts₀ : Prop where
  dot_S2x12x1024x64_S2x12x64x1024_S2x12x1024x1024_3_2_2_3_01_01_wf : DotDims.WF S2x12x1024x64 S2x12x64x1024 S2x12x1024x1024 [3] [2] [2] [3] [0, 1] [0, 1]

variable [Facts₀]

def dot_S2x12x1024x64_S2x12x64x1024_S2x12x1024x1024_3_2_2_3_01_01 : DotDims S2x12x1024x64 S2x12x64x1024 S2x12x1024x1024 where
  lhsContracting := [3]
  rhsContracting := [2]
  lhsNonContracting := [2]
  rhsNonContracting := [3]
  lhsBatch := [0, 1]
  rhsBatch := [0, 1]
  wf := dot_S2x12x1024x64_S2x12x64x1024_S2x12x1024x1024_3_2_2_3_01_01_wf

class Facts : Prop extends Facts₀ where

variable [Facts]
-- ==== Proof.Payload.lean ====
/-
  What the kernel body computes from its two loaded blocks, entry by entry, on the extended reals.

  The body loads a block of two stacked 1024 × 64 matrices and a block of two stacked 64 × 1024 matrices, changes
  their float format (the identity on the extended reals), and multiplies them stack by stack into a zero
  accumulator. So entry (b, r, n) of what it stores is the sum over the 64 inner positions k of
  x0 (b, r, k) · x1 (b, k, n): the accumulator contributes the zero it starts from, the operand index of the left
  factor takes the stack and the row from the output index and the inner position from the contraction, and the one of
  the right factor the stack and the column.
-/
import proofs.«176952_j18648747999367_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The operand indices of the stacked product -/

theorem lhs_stack (i : S2x1024x1024.Idx) (q : dot_S2x1024x64_S2x64x1024_S2x1024x1024_2_1_1_2_0_0.contr.Idx) :
    (dot_S2x1024x64_S2x64x1024_S2x1024x1024_2_1_1_2_0_0.lhsIdx i q 0).val = (i 0).val := by
  unfold DotDims.lhsIdx
  rw [dif_pos (show (0 : Fin S2x1024x64.rank) ∈ dot_S2x1024x64_S2x64x1024_S2x1024x1024_2_1_1_2_0_0.lhsBatch by decide)]
  rfl
theorem lhs_row (i : S2x1024x1024.Idx) (q : dot_S2x1024x64_S2x64x1024_S2x1024x1024_2_1_1_2_0_0.contr.Idx) :
    (dot_S2x1024x64_S2x64x1024_S2x1024x1024_2_1_1_2_0_0.lhsIdx i q 1).val = (i 1).val := by
  unfold DotDims.lhsIdx
  rw [dif_neg (show ¬(1 : Fin S2x1024x64.rank) ∈ dot_S2x1024x64_S2x64x1024_S2x1024x1024_2_1_1_2_0_0.lhsBatch by decide),
    dif_pos (show (1 : Fin S2x1024x64.rank) ∈ dot_S2x1024x64_S2x64x1024_S2x1024x1024_2_1_1_2_0_0.lhsNonContracting by decide)]
  rfl
theorem lhs_inner (i : S2x1024x1024.Idx) (q : dot_S2x1024x64_S2x64x1024_S2x1024x1024_2_1_1_2_0_0.contr.Idx) :
    (dot_S2x1024x64_S2x64x1024_S2x1024x1024_2_1_1_2_0_0.lhsIdx i q 2).val = (q ⟨0, by decide⟩).val :=
  dot_S2x1024x64_S2x64x1024_S2x1024x1024_2_1_1_2_0_0.lhsIdx_val_of_single rfl i q
theorem rhs_stack (i : S2x1024x1024.Idx) (q : dot_S2x1024x64_S2x64x1024_S2x1024x1024_2_1_1_2_0_0.contr.Idx) :
    (dot_S2x1024x64_S2x64x1024_S2x1024x1024_2_1_1_2_0_0.rhsIdx i q 0).val = (i 0).val := by
  unfold DotDims.rhsIdx
  rw [dif_pos (show (0 : Fin S2x64x1024.rank) ∈ dot_S2x1024x64_S2x64x1024_S2x1024x1024_2_1_1_2_0_0.rhsBatch by decide)]
  rfl
theorem rhs_inner (i : S2x1024x1024.Idx) (q : dot_S2x1024x64_S2x64x1024_S2x1024x1024_2_1_1_2_0_0.contr.Idx) :
    (dot_S2x1024x64_S2x64x1024_S2x1024x1024_2_1_1_2_0_0.rhsIdx i q 1).val = (q ⟨0, by decide⟩).val :=
  dot_S2x1024x64_S2x64x1024_S2x1024x1024_2_1_1_2_0_0.rhsIdx_val_of_single rfl i q
theorem rhs_col (i : S2x1024x1024.Idx) (q : dot_S2x1024x64_S2x64x1024_S2x1024x1024_2_1_1_2_0_0.contr.Idx) :
    (dot_S2x1024x64_S2x64x1024_S2x1024x1024_2_1_1_2_0_0.rhsIdx i q 2).val = (i 2).val := by
  unfold DotDims.rhsIdx
  rw [dif_neg (show ¬(2 : Fin S2x64x1024.rank) ∈ dot_S2x1024x64_S2x64x1024_S2x1024x1024_2_1_1_2_0_0.rhsBatch by decide),
    dif_pos (show (2 : Fin S2x64x1024.rank) ∈ dot_S2x1024x64_S2x64x1024_S2x1024x1024_2_1_1_2_0_0.rhsNonContracting by decide)]
  rfl

/-! ## The stored value at an entry -/

/-- Entry `(b, r, n)` of what the body stores is `∑ k, x0 (b, r, k) · x1 (b, k, n)`. -/
theorem pay_apply (x0 : Vec Ideal S2x1024x64 .f32) (x1 : Vec Ideal S2x64x1024 .f32) (b : Fin 2) (r : Fin 1024) (n : Fin 1024) :
    k0_pay1 (F := Ideal) x0 x1 (ix3 b r n) = ∑ k : Fin 64, x0 (ix3 b r k) * x1 (ix3 b k n) := by
  unfold k0_pay1
  refine (Ideal.matmul_constant_zero_apply dot_S2x1024x64_S2x64x1024_S2x1024x1024_2_1_1_2_0_0 none _ _ (ix3 b r n)).trans ?_
  rw [← Equiv.sum_comp (contrEquiv1 dot_S2x1024x64_S2x64x1024_S2x1024x1024_2_1_1_2_0_0 64 rfl rfl).symm]
  refine Finset.sum_congr rfl fun k _ => ?_
  have hk := contrEquiv1_symm_val dot_S2x1024x64_S2x64x1024_S2x1024x1024_2_1_1_2_0_0 64 rfl rfl k
  have el : dot_S2x1024x64_S2x64x1024_S2x1024x1024_2_1_1_2_0_0.lhsIdx (ix3 b r n)
      ((contrEquiv1 dot_S2x1024x64_S2x64x1024_S2x1024x1024_2_1_1_2_0_0 64 rfl rfl).symm k) = ix3 b r k :=
    funext fun a => Fin.ext (by
      match a with
      | ⟨0, _⟩ => exact lhs_stack _ _
      | ⟨1, _⟩ => exact lhs_row _ _
      | ⟨2, _⟩ => exact (lhs_inner _ _).trans hk)
  have er : dot_S2x1024x64_S2x64x1024_S2x1024x1024_2_1_1_2_0_0.rhsIdx (ix3 b r n)
      ((contrEquiv1 dot_S2x1024x64_S2x64x1024_S2x1024x1024_2_1_1_2_0_0 64 rfl rfl).symm k) = ix3 b k n :=
    funext fun a => Fin.ext (by
      match a with
      | ⟨0, _⟩ => exact rhs_stack _ _
      | ⟨1, _⟩ => exact (rhs_inner _ _).trans hk
      | ⟨2, _⟩ => exact rhs_col _ _)
  rw [el, er, truncf_apply, truncf_apply, shapeCast_self, shapeCast_self]

end Cert.KernelIdeal.Block

end
-- ==== Proof.Spec.lean ====
/-
  The batched matrix product, stated once, over literal shapes and for extended-real entries.

  For 24 stacked matrices the entry (w, r, n) of the product is the sum over the 64 inner positions k of
  a (w, r, k) · b (w, k, n). The same product with the stack index split into a pair (u, v) of a 2 × 12 grid of
  heads, w = 12 u + v, is the entry (u, v, r, n) of the four-axis product. Re-laying the operands from four axes to
  three, multiplying stack by stack, and re-laying the result back is the four-axis product, because a row-major
  re-laying that only merges or splits the two leading axes keeps every trailing coordinate and sends (u, v) to
  12 u + v. No property of the entries is used: the two sides are the same sum, term by term.
-/
import Idealize.ShloMosaic.PureOps.Ideal
import Idealize.ShloMosaic.Lib.ValueIdx
import Idealize.ShloMosaic.Lib.Pipeline.Value

noncomputable section

namespace Cert.BatchedProduct

open Idealize.ShloMosaic Idealize.ShloMosaic.ValueIdx

/-! ## Re-laying that merges or splits the two leading axes -/

/-- A `[p, q, a, b]` array re-laid as `[n, a, b]` reads, at `(w, i, j)` with `w = u q + v`, the operand at
    `(u, v, i, j)`: both indices have the same row-major position. -/
theorem shapeCast_join_apply {α : Type} {p q n a b : ℕ} (x : (⟨4, ![p, q, a, b]⟩ : Shape).Idx → α)
    (h : (⟨4, ![p, q, a, b]⟩ : Shape).ShapeCasts ⟨3, ![n, a, b]⟩) (u : Fin p) (v : Fin q) (w : Fin n)
    (hw : w.val = u.val * q + v.val) (i : Fin a) (j : Fin b) :
    shapeCast ⟨3, ![n, a, b]⟩ x h (ix3 w i j) = x (ix4 u v i j) :=
  shapeCast_apply x h _ _ (by
    rw [Shape.rowMajor_val_four, Shape.rowMajor_val_three]
    show ((u.val * q + v.val) * a + i.val) * b + j.val = (w.val * a + i.val) * b + j.val
    rw [hw])

/-- An `[n, a, b]` array re-laid as `[p, q, a, b]` reads, at `(u, v, i, j)`, the operand at `(w, i, j)` with
    `w = u q + v`. -/
theorem shapeCast_split_apply {α : Type} {p q n a b : ℕ} (x : (⟨3, ![n, a, b]⟩ : Shape).Idx → α)
    (h : (⟨3, ![n, a, b]⟩ : Shape).ShapeCasts ⟨4, ![p, q, a, b]⟩) (u : Fin p) (v : Fin q) (w : Fin n)
    (hw : w.val = u.val * q + v.val) (i : Fin a) (j : Fin b) :
    shapeCast ⟨4, ![p, q, a, b]⟩ x h (ix4 u v i j) = x (ix3 w i j) :=
  shapeCast_apply x h _ _ (by
    rw [Shape.rowMajor_val_three, Shape.rowMajor_val_four]
    show (w.val * a + i.val) * b + j.val = ((u.val * q + v.val) * a + i.val) * b + j.val
    rw [hw])

/-! ## The two products -/

/-- The product of 24 stacked pairs: entry `(w, r, n)` is `∑ k, a (w, r, k) · b (w, k, n)`. -/
def stacked (a : (⟨3, ![24, 1024, 64]⟩ : Shape).Idx → EReal) (b : (⟨3, ![24, 64, 1024]⟩ : Shape).Idx → EReal) :
    (⟨3, ![24, 1024, 1024]⟩ : Shape).Idx → EReal :=
  fun i => ∑ k : Fin 64, a (ix3 (n0 := 24) (n1 := 1024) (n2 := 64) (i 0) (i 1) k)
    * b (ix3 (n0 := 24) (n1 := 64) (n2 := 1024) (i 0) k (i 2))

theorem stacked_apply (a : (⟨3, ![24, 1024, 64]⟩ : Shape).Idx → EReal) (b : (⟨3, ![24, 64, 1024]⟩ : Shape).Idx → EReal)
    (w : Fin 24) (r : Fin 1024) (n : Fin 1024) :
    stacked a b (ix3 w r n) = ∑ k : Fin 64, a (ix3 w r k) * b (ix3 w k n) := rfl

/-- The product over a 2 × 12 grid of heads: entry `(u, v, r, n)` is `∑ k, x (u, v, r, k) · y (u, v, k, n)`. -/
def heads (x : (⟨4, ![2, 12, 1024, 64]⟩ : Shape).Idx → EReal) (y : (⟨4, ![2, 12, 64, 1024]⟩ : Shape).Idx → EReal) :
    (⟨4, ![2, 12, 1024, 1024]⟩ : Shape).Idx → EReal :=
  fun i => ∑ k : Fin 64, x (ix4 (n0 := 2) (n1 := 12) (n2 := 1024) (n3 := 64) (i 0) (i 1) (i 2) k)
    * y (ix4 (n0 := 2) (n1 := 12) (n2 := 64) (n3 := 1024) (i 0) (i 1) k (i 3))

theorem heads_apply (x : (⟨4, ![2, 12, 1024, 64]⟩ : Shape).Idx → EReal) (y : (⟨4, ![2, 12, 64, 1024]⟩ : Shape).Idx → EReal)
    (u : Fin 2) (v : Fin 12) (r : Fin 1024) (n : Fin 1024) :
    heads x y (ix4 u v r n) = ∑ k : Fin 64, x (ix4 u v r k) * y (ix4 u v k n) := rfl

/-! ## Merging the heads, multiplying, and splitting again is the product over heads -/

/-- Re-lay both operands to 24 stacked matrices, multiply stack by stack, re-lay the result to the grid of heads: entry by
    entry this is the product over heads, the stack index of head `(u, v)` being `12 u + v`. -/
theorem split_stacked_join (x : (⟨4, ![2, 12, 1024, 64]⟩ : Shape).Idx → EReal) (y : (⟨4, ![2, 12, 64, 1024]⟩ : Shape).Idx → EReal)
    (h0 : (⟨4, ![2, 12, 1024, 64]⟩ : Shape).ShapeCasts ⟨3, ![24, 1024, 64]⟩)
    (h1 : (⟨4, ![2, 12, 64, 1024]⟩ : Shape).ShapeCasts ⟨3, ![24, 64, 1024]⟩)
    (h2 : (⟨3, ![24, 1024, 1024]⟩ : Shape).ShapeCasts ⟨4, ![2, 12, 1024, 1024]⟩) :
    shapeCast ⟨4, ![2, 12, 1024, 1024]⟩
      (stacked (shapeCast ⟨3, ![24, 1024, 64]⟩ x h0) (shapeCast ⟨3, ![24, 64, 1024]⟩ y h1)) h2 = heads x y := by
  funext i
  obtain ⟨u, v, r, n, rfl⟩ : ∃ (u : Fin 2) (v : Fin 12) (r : Fin 1024) (n : Fin 1024), i = ix4 u v r n :=
    ⟨i 0, i 1, i 2, i 3, eq_ix4 i⟩
  have hw : u.val * 12 + v.val < 24 := by omega
  rw [shapeCast_split_apply _ h2 u v ⟨u.val * 12 + v.val, hw⟩ rfl r n, stacked_apply, heads_apply]
  refine Finset.sum_congr rfl fun k _ => ?_
  rw [shapeCast_join_apply x h0 u v ⟨u.val * 12 + v.val, hw⟩ rfl r k,
    shapeCast_join_apply y h1 u v ⟨u.val * 12 + v.val, hw⟩ rfl k n]

end Cert.BatchedProduct

end
-- ==== Proof.Blocks.lean ====
/-
  From the grid's blocks to the whole output array of the region.

  The region runs over 12 points. At point t each operand window is the pair of stacked matrices 2 t and 2 t + 1 of
  its array (all rows, all columns), and the output window is the pair of stacked matrices 2 t and 2 t + 1 of the
  output. The body stores the stack-by-stack product of its two loaded blocks, so what point t writes back is block t
  of ONE function of the operand arrays: the product of the 24 stacked pairs. Every stack index w lies in the block of
  point w / 2, so the blocks cover the output array, which therefore ends holding that product.
-/
import proofs.«176952_j18648747999367_2_alg».proof.Proof.Gen.KernelIdeal.Frame
import proofs.«176952_j18648747999367_2_alg».proof.Proof.Payload
import proofs.«176952_j18648747999367_2_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The three index maps over the grid: every window moves along the stack axis only, the operands with the output,
    and the output's block index stays below 12. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) ≤ 11 ∧ win0_2.index t (1 : Fin 3) = 0 ∧ win0_2.index t (2 : Fin 3) = 0 :=
  (by decide +kernel : ∀ t : Fin grid0.N, _)

/-- Every pair of stacked matrices is some point's block. -/
theorem idx_onto : ∀ q : Fin 12, ∃ t : Fin cfg0.N, win0_2.index t = ![q.val, 0, 0] :=
  (by decide +kernel : ∀ q : Fin 12, ∃ t : Fin grid0.N, win0_2.index t = ![q.val, 0, 0])

/-- The left operand's block at point `t`, entry `(b, r, k)`, is the left array at `(w, r, k)`, `w` the stack index
    `2 · (block index) + b`. -/
theorem left_block (c : Dev nD) (t : Fin cfg0.N) (b : Fin 2) (r : Fin 1024) (k : Fin 64) (w : Fin 24)
    (hw : w.val = win0_2.index t (0 : Fin 3) * 2 + b.val) :
    (iblk m c 0 t : Vec Ideal S2x1024x64 .f32) (ix3 b r k) = (V m c main_call0_v0 : S24x1024x64.Idx → EReal) (ix3 w r k) := by
  obtain ⟨e0, e1, e2, -⟩ := idx_facts t
  unfold iblk
  rw [View.read_apply]
  show V m c main_call0_v0 _ = V m c main_call0_v0 _
  refine congrArg (V m c main_call0_v0) ?_
  funext a
  apply Fin.ext
  match a with
  | ⟨0, _⟩ => show win0_0.index t (0 : Fin 3) * 2 + 1 * b.val = w.val; omega
  | ⟨1, _⟩ => show win0_0.index t (1 : Fin 3) * 1024 + 1 * r.val = r.val; omega
  | ⟨2, _⟩ => show win0_0.index t (2 : Fin 3) * 64 + 1 * k.val = k.val; omega

/-- The right operand's block at point `t`, entry `(b, k, n)`, is the right array at `(w, k, n)`. -/
theorem right_block (c : Dev nD) (t : Fin cfg0.N) (b : Fin 2) (k : Fin 64) (n : Fin 1024) (w : Fin 24)
    (hw : w.val = win0_2.index t (0 : Fin 3) * 2 + b.val) :
    (iblk m c 1 t : Vec Ideal S2x64x1024 .f32) (ix3 b k n) = (V m c main_call0_v1 : S24x64x1024.Idx → EReal) (ix3 w k n) := by
  obtain ⟨-, -, -, e3, e4, e5, -⟩ := idx_facts t
  unfold iblk
  rw [View.read_apply]
  show V m c main_call0_v1 _ = V m c main_call0_v1 _
  refine congrArg (V m c main_call0_v1) ?_
  funext a
  apply Fin.ext
  match a with
  | ⟨0, _⟩ => show win0_1.index t (0 : Fin 3) * 2 + 1 * b.val = w.val; omega
  | ⟨1, _⟩ => show win0_1.index t (1 : Fin 3) * 64 + 1 * k.val = k.val; omega
  | ⟨2, _⟩ => show win0_1.index t (2 : Fin 3) * 1024 + 1 * n.val = n.val; omega

/-- What the body stores at point `t`, entry by entry, is the product of the 24 stacked pairs read where the output's
    block lies in the output array. -/
theorem stored_block (c : Dev nD) (t : Fin cfg0.N) (y : S2x1024x1024.Idx) :
    k0_pay1 (F := Ideal) (iblk m c 0 t) (iblk m c 1 t) y
      = BatchedProduct.stacked (V m c main_call0_v0) (V m c main_call0_v1) (((cfg0.win 2).blk t).view.emb y) := by
  obtain ⟨b, r, n, rfl⟩ : ∃ (b : Fin 2) (r : Fin 1024) (n : Fin 1024), y = ix3 b r n := ⟨y 0, y 1, y 2, eq_ix3 y⟩
  obtain ⟨-, -, -, -, -, -, e6, e7, e8⟩ := idx_facts t
  have hw : win0_2.index t (0 : Fin 3) * 2 + b.val < 24 := by omega
  have hemb : ((cfg0.win 2).blk t).view.emb (ix3 b r n)
      = ix3 (n0 := 24) (n1 := 1024) (n2 := 1024) ⟨win0_2.index t (0 : Fin 3) * 2 + b.val, hw⟩ r n := by
    funext a
    apply Fin.ext
    match a with
    | ⟨0, _⟩ => show win0_2.index t (0 : Fin 3) * 2 + 1 * b.val = win0_2.index t (0 : Fin 3) * 2 + b.val; omega
    | ⟨1, _⟩ => show win0_2.index t (1 : Fin 3) * 1024 + 1 * r.val = r.val; omega
    | ⟨2, _⟩ => show win0_2.index t (2 : Fin 3) * 1024 + 1 * n.val = n.val; omega
  rw [hemb, BatchedProduct.stacked_apply]
  refine (Block.pay_apply (iblk m c 0 t) (iblk m c 1 t) b r n).trans ?_
  refine Finset.sum_congr rfl fun k _ => ?_
  exact congrArg₂ (· * ·) (left_block m c t b r k ⟨_, hw⟩ rfl) (right_block m c t b k n ⟨_, hw⟩ rfl)

/-- WHAT POINT `t` WRITES BACK is block `t` of the product of the 24 stacked pairs of the operand arrays. -/
theorem flushed_eq (c : Dev nD) (t : Fin cfg0.N) :
    (dats m 0 c).flushed 2 t = ((cfg0.win 2).blk t).view.read (Elt Ideal)
      (BatchedProduct.stacked (V m c main_call0_v0) (V m c main_call0_v1)) := by
  show (cfg0.win 2).cut (grid0.coords t) ((dats m 0 c).after 2 t) = _
  rw [after0_2]
  unfold out0_2
  rw [View.canon_unit_zero hz]
  simp only [View.ld_unit_zero (S := S2x1024x64) hz, View.ld_unit_zero (S := S2x64x1024) hz]
  funext j
  exact stored_block m c t j

/-- An index of the output array is in point `t`'s block iff each coordinate is in the block's range on its axis. -/
theorem mem_blk (t : Fin cfg0.N) (i : S24x1024x1024.Idx) :
    i ∈ ((cfg0.win 2).blk t).view.set ↔ ∀ a : Fin 3, win0_2.index t a * S2x1024x1024.size a ≤ (i a).val
      ∧ (i a).val < win0_2.index t a * S2x1024x1024.size a + S2x1024x1024.size a := by
  show i ∈ ((View.whole main_call0_v2).slice (win0_2.rect t)).set ↔ _
  rw [View.set_slice_whole, Rect.mem_set_unit]
  exact Iff.rfl

/-- Every index of the output array is in the block of the point holding its stack index: point `w / 2`. -/
theorem cover (i : S24x1024x1024.Idx) :
    ∃ t : Fin cfg0.N, (cfg0.win 2).flush t = true ∧ i ∈ ((cfg0.win 2).blk t).view.set := by
  have hi0 : (i 0).val < 24 := (i 0).isLt
  have hi1 : (i 1).val < 1024 := (i 1).isLt
  have hi2 : (i 2).val < 1024 := (i 2).isLt
  obtain ⟨t, ht⟩ := idx_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- THE OUTPUT ARRAY of the region after the run: the product of the 24 stacked pairs of the operand arrays as the region
    finds them. -/
theorem final (c : Dev nD) :
    (dats m 0 c).arrAt 2 cfg0.N = BatchedProduct.stacked (V m c main_call0_v0) (V m c main_call0_v1) :=
  (dats m 0 c).arrAt_eq_of_cover 2 _ (fun t _ => flushed_eq m c t) cover

end Cert.KernelIdeal.Blocks

end
-- ==== Proof.KernelRun.lean ====
/-
  The whole idealized kernel program, read as a function of its arguments.

  Around the region the host only re-lays arrays: the two operands from a 2 × 12 grid of heads to 24 stacked matrices
  before it, the region's output from 24 stacked matrices back to the grid of heads after it. A row-major re-laying
  that merges or splits the two leading axes sends head (u, v) to stack index 12 u + v and keeps the other
  coordinates, so the program's result is the product over heads of its two first arguments; the two last arguments
  are never read. The arguments end unchanged.
-/
import proofs.«176952_j18648747999367_2_alg».proof.Proof.Blocks
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The left operand as the region finds it: the first argument re-laid to 24 stacked matrices. -/
theorem left_entry (c : Dev nD) :
    (V m c main_call0_v0 : S24x1024x64.Idx → EReal)
      = shapeCast S24x1024x64 (m ((c : Thread nD τ).loc main_arg0)) shapeCasts_S2x12x1024x64_S24x1024x64 := by
  show StableHlo.after hostOps0 (fun b => m (c, b)) (Proc.devRef .tc main_call0_v0) = _
  after_results
  rfl

/-- The right operand as the region finds it: the second argument re-laid to 24 stacked matrices. -/
theorem right_entry (c : Dev nD) :
    (V m c main_call0_v1 : S24x64x1024.Idx → EReal)
      = shapeCast S24x64x1024 (m ((c : Thread nD τ).loc main_arg1)) shapeCasts_S2x12x64x1024_S24x64x1024 := by
  show StableHlo.after hostOps0 (fun b => m (c, b)) (Proc.devRef .tc main_call0_v1) = _
  after_results
  rfl

/-- The program's result after the host line that follows the region: the region's output array re-laid to the grid of
    heads. -/
theorem tail_result (c : Dev nD) :
    (Pipeline.afterTail₀ cfgs (dats m) 0 (V0 m) [hostOps1] c main_v0 : S2x12x1024x1024.Idx → EReal)
      = shapeCast S2x12x1024x1024 ((dats m 0 c).arrAt 2 cfg0.N) shapeCasts_S24x1024x1024_S2x12x1024x1024 := by
  unfold Pipeline.afterTail₀
  show StableHlo.after hostOps1 _ (Proc.devRef .tc main_v0) = _
  after_results
  exact congrArg (fun a => shapeCast S2x12x1024x1024 a shapeCasts_S24x1024x1024_S2x12x1024x1024)
    (Pipeline.withArrays_arr spec0 launch0.win.arr_inj c _ _ 2)

/-- THE RESULT as one function of the arguments: the product over the grid of heads. -/
theorem result_eq (c : Dev nD) :
    (Pipeline.afterTail₀ cfgs (dats m) 0 (V0 m) [hostOps1] c main_v0 : S2x12x1024x1024.Idx → EReal)
      = BatchedProduct.heads (m ((c : Thread nD τ).loc main_arg0)) (m ((c : Thread nD τ).loc main_arg1)) := by
  rw [tail_result, Blocks.final, left_entry, right_entry]
  exact BatchedProduct.split_stacked_join _ _ _ _ _

/-- Every weakly fair execution of the program terminates with the result at the product over heads of the two first
    arguments, and all four arguments unchanged. -/
theorem run : θ_run defs (onTc (τ := τ) (main (F := Ideal))) ⟨m, fun _ => 0, ρ⟩ fun r => ∀ c : Dev nD,
      r.2.mem ((c.tc : Thread nD τ).loc main_v0)
        = BatchedProduct.heads (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.ReferenceValue.lean ====
/-
  The reference's result as the product over the grid of heads.

  The reference is one contraction of its two first arguments with the two leading axes as batch axes: entry
  (u, v, r, n) of its result is the sum over the 64 inner positions k of x (u, v, r, k) · y (u, v, k, n), which is the
  product over heads by definition once the operand indices are written by their coordinates.
-/
import proofs.«176952_j18648747999367_2_alg».proof.Proof.Gen.ReferenceIdeal.Read
import proofs.«176952_j18648747999367_2_alg».proof.Proof.Spec

noncomputable section

namespace Cert.ReferenceIdeal.Whole

open Cert.ReferenceIdeal Cert.ReferenceIdeal.Gen Idealize.ShloMosaic Idealize.ShloMosaic.TcCoe Idealize.SL.Sem
open Idealize.ShloMosaic.ValueIdx

/-- The reference's contraction, entry by entry, is the product over heads. -/
theorem result_eq (x : (⟨S2x12x1024x64, .f32⟩ : BufTy).Contents (Elt Ideal)) (y : (⟨S2x12x64x1024, .f32⟩ : BufTy).Contents (Elt Ideal)) :
    Read.val_main_v0 (F := Ideal) x y = BatchedProduct.heads x y := by
  funext i
  obtain ⟨u, v, r, n, rfl⟩ : ∃ (u : Fin 2) (v : Fin 12) (r : Fin 1024) (n : Fin 1024), i = ix4 u v r n :=
    ⟨i 0, i 1, i 2, i 3, eq_ix4 i⟩
  rw [Read.val_main_v0_apply, BatchedProduct.heads_apply]
  refine Finset.sum_congr rfl fun k _ => ?_
  have el : Read.lidx_main_v0 (ix4 u v r n) k = ix4 u v r k :=
    funext fun a => Fin.ext (by match a with | ⟨0, _⟩ => rfl | ⟨1, _⟩ => rfl | ⟨2, _⟩ => rfl | ⟨3, _⟩ => rfl)
  have er : Read.ridx_main_v0 (ix4 u v r n) k = ix4 u v k n :=
    funext fun a => Fin.ext (by match a with | ⟨0, _⟩ => rfl | ⟨1, _⟩ => rfl | ⟨2, _⟩ => rfl | ⟨3, _⟩ => rfl)
  rw [el, er]

end Cert.ReferenceIdeal.Whole

end
-- ==== Proof.lean ====
/-
  The idealized kernel and the idealized reference compute the same batched matrix product.

  The kernel re-lays its two first arguments from a 2 × 12 grid of heads to 24 stacked matrices, multiplies them two
  stacks per grid point (the change of float format on the way into the product is the identity on the extended
  reals, and the product accumulates into zero), and re-lays the 24 products back to the grid of heads. The reference
  contracts the same two arguments with the two leading axes as batch axes. Entry (u, v, r, n) of both results is
  ∑ k, x (u, v, r, k) · y (u, v, k, n), the same sum term by term: no law of the extended reals beyond rewriting the
  indices is needed, so finiteness of the inputs is never used. Both programs leave their arguments unchanged, and the
  idealized kernel is the kernel's own text read on the extended reals (nothing was rewritten).
-/
import proofs.«176952_j18648747999367_2_alg».proof.Defs
import proofs.«176952_j18648747999367_2_alg».proof.Proof.Gen.Kernel
import proofs.«176952_j18648747999367_2_alg».proof.Proof.Gen.Kernel.Skeleton
import proofs.«176952_j18648747999367_2_alg».proof.Proof.Gen.Kernel.Launch
import proofs.«176952_j18648747999367_2_alg».proof.Proof.Gen.Kernel.Points
import proofs.«176952_j18648747999367_2_alg».proof.Proof.Gen.Kernel.Frame
import proofs.«176952_j18648747999367_2_alg».proof.Proof.Gen.KernelIdeal
import proofs.«176952_j18648747999367_2_alg».proof.Proof.Gen.KernelIdeal.Skeleton
import proofs.«176952_j18648747999367_2_alg».proof.Proof.Gen.KernelIdeal.Launch
import proofs.«176952_j18648747999367_2_alg».proof.Proof.Gen.KernelIdeal.Points
import proofs.«176952_j18648747999367_2_alg».proof.Proof.Gen.KernelIdeal.Frame
import proofs.«176952_j18648747999367_2_alg».proof.Proof.Gen.ReferenceIdeal
import proofs.«176952_j18648747999367_2_alg».proof.Proof.Gen.ReferenceIdeal.Run
import proofs.«176952_j18648747999367_2_alg».proof.Proof.Gen.ReferenceIdeal.Read
import proofs.«176952_j18648747999367_2_alg».proof.Proof.KernelRun
import proofs.«176952_j18648747999367_2_alg».proof.Proof.ReferenceValue
import proofs.«176952_j18648747999367_2_alg».proof.Proof.Gen.Pre_finite_inputs
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way from the kernel to its idealization. -/
theorem preserves : Cert.preserves_Kernel_KernelIdeal := trivial

/-- From memories agreeing on the arguments both programs end with the product over heads of the two first arguments. -/
theorem algebraic : Cert.algebraic_KernelIdeal_ReferenceIdeal := by
  intro m ρ m' ρ' _ hagree
  refine ⟨fun c => Cert.BatchedProduct.heads (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.Whole.result_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
